-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S16x64 .f32) (main_arg6 : FVec F S64 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x64 .f32 := Host.absf main_arg5
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x64 .f32) (main_arg6 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x64 : Shape := ⟨2, ![100000, 64]⟩
abbrev S10000x16 : Shape := ⟨2, ![10000, 16]⟩
abbrev S10000x64 : Shape := ⟨2, ![10000, 64]⟩
abbrev S3300000x64 : Shape := ⟨2, ![3300000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 93
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x64, .f32⟩
  | .hbm, ⟨6, _⟩ => ⟨S64, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x64, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x64, .f32⟩
  | .hbm, ⟨82, _⟩ => ⟨S3300000x1, .f32⟩
  | .hbm, ⟨83, _⟩ => ⟨S3300000x64, .f32⟩
  | .hbm, ⟨84, _⟩ => ⟨S3300000x64, .f32⟩
  | .hbm, ⟨85, _⟩ => ⟨S_, .f32⟩
  | .hbm, ⟨86, _⟩ => ⟨S100000x64, .f32⟩
  | .hbm, ⟨87, _⟩ => ⟨S3300000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S16x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x64_S16x64_0_0 : ∀ a, (![0, 0] : Fin 2 → Nat) a + S16x64.size a ≤ S16x64.size a
  h_S16x64 : 0 < S16x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x64_S10000x64_1_0_0_1_n_n_wf : DotDims.WF S10000x16 S16x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S10000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x64, .f32⟩
  | .hbm, ⟨6, _⟩ => ⟨S64, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x64, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x64, .f32⟩
  | .hbm, ⟨82, _⟩ => ⟨S3300000x1, .f32⟩
  | .hbm, ⟨83, _⟩ => ⟨S3300000x64, .f32⟩
  | .hbm, ⟨84, _⟩ => ⟨S3300000x64, .f32⟩
  | .hbm, ⟨85, _⟩ => ⟨S_, .f32⟩
  | .hbm, ⟨86, _⟩ => ⟨S100000x64, .f32⟩
  | .hbm, ⟨87, _⟩ => ⟨S3300000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x64, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x64, .f32⟩
  | .hbm, ⟨106, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.KernelRun.lean ====
/-
  The idealized kernel's run with its RESULT named. The program is nine segments — three stretches of host operations, the
  first matrix product, two more stretches, the second matrix product, a last stretch, the log-softmax — and the contents of
  every buffer at each boundary form a fold from the launch memory: a stretch applies its operations to the previous
  boundary's contents, a region replaces its output array by what its grid points wrote back and leaves every other buffer
  alone. Every weakly fair execution terminates without a fault, and in every final state the result buffer holds the LAST
  boundary's contents at that buffer, the seven arguments their launch contents. (That the arguments end unchanged is the
  program's frame claim; here the same launch, segments and final reading also yield the result buffer.)
-/
import proofs.«130012_j61950608277795_1_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting; the result buffer ends at the last
    boundary's contents `W9`, each argument as launched. -/
theorem run_result : θ_run defs (onTc (τ := τ) (main (F := F))) ⟨m, fun _ => 0, ρ⟩ (fun r => ∀ c : Dev nD,
      r.2.mem ((c.tc : Thread nD τ).loc main_v67) = W9 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v67 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.RunResult

end
-- ==== Proof.GcnStages.lean ====
/-
  The host side of a two-layer graph convolution, as pure functions of arrays — the operations both programs of the
  certificate apply outside their matrix products and the final log-softmax, stage by stage:

  * `endpoints r e`: row `r` of the [2, 3200000] edge list followed by 0, 1, …, 99999 — the sources (r = 0) or targets
    (r = 1) of the edges with one self-loop per node appended; `weights w`: the edge weights followed by 100000 ones.
  * `wrap i`: an index vector with 100000 added where it is negative (how an array is indexed by possibly negative integers).
  * `edgeNorm e w`: per edge, dinv[src] · w · dinv[dst], where deg = the scatter-add of the weights at the targets and
    dinv = 1/sqrt(deg) where deg > 0, else 0 (the symmetric normalisation of the adjacency with self-loops).
  * `propagate16 h src nrm dst b`, `propagate64 …`: gather the rows of `h` at the sources, scale each by its edge's
    normalisation, scatter-add them at the targets, add the bias `b` to every row — one message-passing step on rows of
    width 16, resp. 64; `relu`: the maximum with 0.

  Nothing is proved about these functions: they only NAME what each stretch of host operations computes, so that the two
  programs' runs can be compared stretch by stretch.
-/
import proofs.«130012_j61950608277795_1_alg».proof.Proof.Gen.ReferenceIdeal

noncomputable section

namespace Cert.Gcn

open Idealize.ShloMosaic Cert.ReferenceIdeal Cert.ReferenceIdeal.Gen

variable {F : FTy → Type} [FloatOps F]

/-- Row 0 of the edge list, then 0 … 99999: every edge's source, then every self-loop's. -/
def sources (e : (⟨S2x3200000, .i32⟩ : BufTy).Contents (Elt F)) : (⟨S3300000, .i32⟩ : BufTy).Contents (Elt F) :=
  concatenate S3300000 0 [⟨S3200000, shapeCast _ (extractStridedSlice S1x3200000 ![0, 0] e slices_S2x3200000_S1x3200000_0_0) shapeCasts_S1x3200000_S3200000⟩,
    ⟨S100000, iotaInDim S100000 32 0⟩] concatenates_S3200000_S100000_S3300000_d0

/-- Row 1 of the edge list, then 0 … 99999: every edge's target, then every self-loop's. -/
def targets (e : (⟨S2x3200000, .i32⟩ : BufTy).Contents (Elt F)) : (⟨S3300000, .i32⟩ : BufTy).Contents (Elt F) :=
  concatenate S3300000 0 [⟨S3200000, shapeCast _ (extractStridedSlice S1x3200000 ![1, 0] e slices_S2x3200000_S1x3200000_1_0) shapeCasts_S1x3200000_S3200000⟩,
    ⟨S100000, iotaInDim S100000 32 0⟩] concatenates_S3200000_S100000_S3300000_d0

/-- The edge weights, then a one per self-loop. -/
def weights (w : (⟨S3200000, .f32⟩ : BufTy).Contents (Elt F)) : (⟨S3300000, .f32⟩ : BufTy).Contents (Elt F) :=
  concatenate S3300000 0 [⟨S3200000, w⟩, ⟨S100000, broadcastInDim S100000 ![] bcast_S_S100000 (constant S_ .f32 0x3F800000#32)⟩]
    concatenates_S3200000_S100000_S3300000_d0

/-- A negative index counts from the end: 100000 is added to it. -/
def wrap (i : (⟨S3300000, .i32⟩ : BufTy).Contents (Elt F)) : (⟨S3300000, .i32⟩ : BufTy).Contents (Elt F) :=
  select (cmpi .slt i (broadcastInDim S3300000 ![] bcast_S_S3300000 (constantI S_ 32 0#32)))
    (addi i (broadcastInDim S3300000 ![] bcast_S_S3300000 (constantI S_ 32 100000#32))) i

/-- Each node's weighted in-degree: the weights summed at their targets. -/
def degree (dst : (⟨S3300000, .i32⟩ : BufTy).Contents (Elt F)) (w : (⟨S3300000, .f32⟩ : BufTy).Contents (Elt F)) :
    (⟨S100000, .f32⟩ : BufTy).Contents (Elt F) :=
  Host.scatterAdd scatter_S100000_S3300000x1_S3300000_n_0_0_1 (broadcastInDim S100000 ![] bcast_S_S100000 (constant S_ .f32 0x00000000#32))
    (broadcastInDim S3300000x1 ![0] bcast_S3300000_S3300000x1_0 dst) w

/-- 1/sqrt(deg) where the degree is positive, 0 elsewhere. -/
def invSqrtDegree (deg : (⟨S100000, .f32⟩ : BufTy).Contents (Elt F)) : (⟨S100000, .f32⟩ : BufTy).Contents (Elt F) :=
  select (cmpf .ogt deg (broadcastInDim S100000 ![] bcast_S_S100000 (constant S_ .f32 0x00000000#32))) (Host.rsqrt deg)
    (broadcastInDim S100000 ![] bcast_S_S100000 (id (constant S_ .f32 0x00000000#32)))

/-- Per edge: dinv at its source, times its weight, times dinv at its target. -/
def edgeNorm (e : (⟨S2x3200000, .i32⟩ : BufTy).Contents (Elt F)) (w : (⟨S3200000, .f32⟩ : BufTy).Contents (Elt F)) :
    (⟨S3300000, .f32⟩ : BufTy).Contents (Elt F) :=
  mulf (mulf (Host.gather gather_S100000_S3300000x1_S3300000_n_0_n_n_0_1_1 (invSqrtDegree (degree (targets e) (weights w)))
        (broadcastInDim S3300000x1 ![0] bcast_S3300000_S3300000x1_0 (wrap (sources e)))) (weights w))
    (Host.gather gather_S100000_S3300000x1_S3300000_n_0_n_n_0_1_1 (invSqrtDegree (degree (targets e) (weights w)))
        (broadcastInDim S3300000x1 ![0] bcast_S3300000_S3300000x1_0 (wrap (targets e))))

/-- One message-passing step on rows of width 16: gather at the sources, scale by the edge's normalisation, sum at the
    targets, add the bias to every row. -/
def propagate16 (h : (⟨S100000x16, .f32⟩ : BufTy).Contents (Elt F)) (src : (⟨S3300000, .i32⟩ : BufTy).Contents (Elt F))
    (nrm : (⟨S3300000, .f32⟩ : BufTy).Contents (Elt F)) (dst : (⟨S3300000, .i32⟩ : BufTy).Contents (Elt F))
    (b : (⟨S16, .f32⟩ : BufTy).Contents (Elt F)) : (⟨S100000x16, .f32⟩ : BufTy).Contents (Elt F) :=
  addf (Host.scatterAdd scatter_S100000x16_S3300000x1_S3300000x16_1_0_0_1 (broadcastInDim S100000x16 ![] bcast_S_S100000x16 (constant S_ .f32 0x00000000#32))
      (broadcastInDim S3300000x1 ![0] bcast_S3300000_S3300000x1_0 dst)
      (mulf (Host.gather gather_S100000x16_S3300000x1_S3300000x16_1_0_n_n_0_1_116 h (broadcastInDim S3300000x1 ![0] bcast_S3300000_S3300000x1_0 (wrap src)))
        (broadcastInDim S3300000x16 ![0, 1] bcast_S3300000x1_S3300000x16_0_1 (broadcastInDim S3300000x1 ![0] bcast_S3300000_S3300000x1_0 nrm))))
    (broadcastInDim S100000x16 ![0, 1] bcast_S1x16_S100000x16_0_1 (broadcastInDim S1x16 ![1] bcast_S16_S1x16_1 b))

/-- The maximum with zero, entry by entry. -/
def relu (x : (⟨S100000x16, .f32⟩ : BufTy).Contents (Elt F)) : (⟨S100000x16, .f32⟩ : BufTy).Contents (Elt F) :=
  maximumf x (broadcastInDim S100000x16 ![] bcast_S_S100000x16 (constant S_ .f32 0x00000000#32))

/-- The same step on rows of width 64. -/
def propagate64 (h : (⟨S100000x64, .f32⟩ : BufTy).Contents (Elt F)) (src : (⟨S3300000, .i32⟩ : BufTy).Contents (Elt F))
    (nrm : (⟨S3300000, .f32⟩ : BufTy).Contents (Elt F)) (dst : (⟨S3300000, .i32⟩ : BufTy).Contents (Elt F))
    (b : (⟨S64, .f32⟩ : BufTy).Contents (Elt F)) : (⟨S100000x64, .f32⟩ : BufTy).Contents (Elt F) :=
  addf (Host.scatterAdd scatter_S100000x64_S3300000x1_S3300000x64_1_0_0_1 (broadcastInDim S100000x64 ![] bcast_S_S100000x64 (constant S_ .f32 0x00000000#32))
      (broadcastInDim S3300000x1 ![0] bcast_S3300000_S3300000x1_0 dst)
      (mulf (Host.gather gather_S100000x64_S3300000x1_S3300000x64_1_0_n_n_0_1_164 h (broadcastInDim S3300000x1 ![0] bcast_S3300000_S3300000x1_0 (wrap src)))
        (broadcastInDim S3300000x64 ![0, 1] bcast_S3300000x1_S3300000x64_0_1 (broadcastInDim S3300000x1 ![0] bcast_S3300000_S3300000x1_0 nrm))))
    (broadcastInDim S100000x64 ![0, 1] bcast_S1x64_S100000x64_0_1 (broadcastInDim S1x64 ![1] bcast_S64_S1x64_1 b))

end Cert.Gcn

end
-- ==== Proof.RowLogSoftmax.lean ====
/-
  The row-wise log-softmax of a [100000, 64] array of extended reals, spelt as the reference program spells it: the row's
  maximum taken from −∞ (and joined once more with −∞, which changes nothing), subtracted from the row; the logarithm of the
  sum of the exponentials of that shifted row subtracted in turn. At row r and column j it is
      x[r, j] − M r − log (∑ k < 64, exp (x[r, k] − M r)),   M r = max (−∞) (max_k x[r, k]).
  Both programs of the certificate end in this function of the same [100000, 64] array: the reference applies these host
  operations one after the other, the kernel computes it block of 10000 rows by block of 10000 rows.
-/
import proofs.«130012_j61950608277795_1_alg».proof.Proof.Gen.ReferenceIdeal
import Idealize.ShloMosaic.PureOps.Ideal

noncomputable section

namespace Cert.RowLogSoftmax

open Idealize.ShloMosaic Cert.ReferenceIdeal Cert.ReferenceIdeal.Gen

/-- The array with each row's maximum subtracted from that row. -/
def shifted (x : FVec Ideal S100000x64 .f32) : FVec Ideal S100000x64 .f32 :=
  subf x (broadcastInDim S100000x64 ![0, 1] bcast_S100000x1_S100000x64_0_1 (broadcastInDim S100000x1 ![0] bcast_S100000_S100000x1_0
    (maximumf (broadcastInDim S100000 ![] bcast_S_S100000 (constant (F := Ideal) S_ .f32 0xFF800000#32))
      (Host.reduce FloatOps.maximumf x (constant (F := Ideal) S_ .f32 0xFF800000#32) reducesTo_S100000x64_S100000_d1 h_S_))))

/-- The shifted array minus, row by row, the logarithm of the sum of its exponentials. -/
def rowLogSoftmax (x : FVec Ideal S100000x64 .f32) : FVec Ideal S100000x64 .f32 :=
  subf (shifted x) (broadcastInDim S100000x64 ![0, 1] bcast_S100000x1_S100000x64_0_1 (Host.log (F := Ideal) (broadcastInDim S100000x1 ![0] bcast_S100000_S100000x1_0
    (Host.reduceAdd (F := Ideal) (Host.exp (F := Ideal) (shifted x)) (constant (F := Ideal) S_ .f32 0x00000000#32) reducesTo_S100000x64_S100000_d1 h_S_))))

end Cert.RowLogSoftmax

end
-- ==== Proof.KernelStages.lean ====
/-
  The idealized kernel's stretches of host operations, each read from ANY contents `V` it starts at (so every term stays
  as small as the stretch). The stretches before the first region leave the sources, the targets and the per-edge
  normalisation as functions of the edge list and the edge weights; those between the two regions turn the first product
  into relu (propagate16 (x·W1) src nrm dst b1); the one after the second region turns the second product into
  propagate64 (h·W2) src nrm dst b2. Each stretch writes none of the buffers a later segment still reads — the index
  vectors, the normalisation, the arguments — so those are carried across it unchanged.
-/
import proofs.«130012_j61950608277795_1_alg».proof.Proof.Gen.KernelIdeal.Frame
import proofs.«130012_j61950608277795_1_alg».proof.Proof.GcnStages
import proofs.«130012_j61950608277795_1_alg».proof.Proof.RowLogSoftmax
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

/-! ## Each stretch of host operations, from any starting contents -/

section Stretches

variable {F : FTy → Type} [FloatOps F] (V : Valuation τ sig (Elt F))

/-- The stretches before the first region leave the sources (the edges' sources, then the self-loops') in their buffer. -/
theorem sources_after : after hostOps0_2 (after hostOps0_1 (after hostOps0 V)) (Proc.devRef .tc main_v3)
    = Cert.Gcn.sources (F := F) (V (Proc.devRef .tc main_arg1)) := by
  after_results_simp; rfl

/-- They leave the targets in theirs. -/
theorem targets_after : after hostOps0_2 (after hostOps0_1 (after hostOps0 V)) (Proc.devRef .tc main_v6)
    = Cert.Gcn.targets (F := F) (V (Proc.devRef .tc main_arg1)) := by
  after_results_simp; rfl

/-- They leave the per-edge normalisation dinv[src] · w · dinv[dst] in its buffer. -/
theorem edgeNorm_after : after hostOps0_2 (after hostOps0_1 (after hostOps0 V)) (Proc.devRef .tc main_v31)
    = Cert.Gcn.edgeNorm (F := F) (V (Proc.devRef .tc main_arg1)) (V (Proc.devRef .tc main_arg2)) := by
  after_results_simp; rfl

/-- They write none of the arguments read later. -/
theorem arg0_after : after hostOps0_2 (after hostOps0_1 (after hostOps0 V)) (Proc.devRef .tc main_arg0) = V (Proc.devRef .tc main_arg0) := by
  after_results_simp
theorem arg3_after : after hostOps0_2 (after hostOps0_1 (after hostOps0 V)) (Proc.devRef .tc main_arg3) = V (Proc.devRef .tc main_arg3) := by
  after_results_simp
theorem arg4_after : after hostOps0_2 (after hostOps0_1 (after hostOps0 V)) (Proc.devRef .tc main_arg4) = V (Proc.devRef .tc main_arg4) := by
  after_results_simp
theorem arg5_after : after hostOps0_2 (after hostOps0_1 (after hostOps0 V)) (Proc.devRef .tc main_arg5) = V (Proc.devRef .tc main_arg5) := by
  after_results_simp
theorem arg6_after : after hostOps0_2 (after hostOps0_1 (after hostOps0 V)) (Proc.devRef .tc main_arg6) = V (Proc.devRef .tc main_arg6) := by
  after_results_simp

/-- The stretches between the two matrix products: one message-passing step on the first product's rows, then the relu. -/
theorem hidden_after : after hostOps1_1 (after hostOps1 V) (Proc.devRef .tc main_v49)
    = Cert.Gcn.relu (F := F) (Cert.Gcn.propagate16 (V (Proc.devRef .tc main_v32)) (V (Proc.devRef .tc main_v3)) (V (Proc.devRef .tc main_v31))
        (V (Proc.devRef .tc main_v6)) (V (Proc.devRef .tc main_arg4))) := by
  after_results_simp; rfl

/-- They write neither the index vectors, nor the normalisation, nor the arguments read later. -/
theorem v3_mid : after hostOps1_1 (after hostOps1 V) (Proc.devRef .tc main_v3) = V (Proc.devRef .tc main_v3) := by
  after_results_simp
theorem v6_mid : after hostOps1_1 (after hostOps1 V) (Proc.devRef .tc main_v6) = V (Proc.devRef .tc main_v6) := by
  after_results_simp
theorem v31_mid : after hostOps1_1 (after hostOps1 V) (Proc.devRef .tc main_v31) = V (Proc.devRef .tc main_v31) := by
  after_results_simp
theorem arg5_mid : after hostOps1_1 (after hostOps1 V) (Proc.devRef .tc main_arg5) = V (Proc.devRef .tc main_arg5) := by
  after_results_simp
theorem arg6_mid : after hostOps1_1 (after hostOps1 V) (Proc.devRef .tc main_arg6) = V (Proc.devRef .tc main_arg6) := by
  after_results_simp

/-- The stretch after the second matrix product: one message-passing step on its rows. -/
theorem logits_after : after hostOps2 V (Proc.devRef .tc main_v66)
    = Cert.Gcn.propagate64 (F := F) (V (Proc.devRef .tc main_v50)) (V (Proc.devRef .tc main_v3)) (V (Proc.devRef .tc main_v31))
        (V (Proc.devRef .tc main_v6)) (V (Proc.devRef .tc main_arg6)) := by
  after_results_simp; rfl

end Stretches

end Cert.KernelIdeal.Stages

end
-- ==== Proof.GcnNetwork.lean ====
/-
  The whole two-layer graph convolution as ONE function of the seven arguments, over the extended reals:
      network x e w W1 b1 W2 b2
        = logSoftmax (propagate64 ((relu (propagate16 (x·W1) src nrm dst b1))·W2) src nrm dst b2),
  src / dst the edges' endpoints with the self-loops appended, nrm the symmetric normalisation of the edge weights.
  The two matrix products are the host's contraction of columns with rows; the certificate's two programs both end with
  their result array at this function of their arguments.
-/
import proofs.«130012_j61950608277795_1_alg».proof.Proof.GcnStages
import proofs.«130012_j61950608277795_1_alg».proof.Proof.RowLogSoftmax

noncomputable section

namespace Cert.Gcn

open Idealize.ShloMosaic Cert.ReferenceIdeal Cert.ReferenceIdeal.Gen

/-- x·W1: the [100000, 512] features times the [512, 16] weights. -/
abbrev product1 {F : FTy → Type} [FloatOps F] (x : (⟨S100000x512, .f32⟩ : BufTy).Contents (Elt F)) (w : (⟨S512x16, .f32⟩ : BufTy).Contents (Elt F)) :
    (⟨S100000x16, .f32⟩ : BufTy).Contents (Elt F) :=
  Host.dotGeneral (F := F) (φ₁ := .f32) (φ₂ := .f32) dot_S100000x512_S512x16_S100000x16_1_0_0_1_n_n none x w

/-- h·W2: the [100000, 16] hidden features times the [16, 64] weights. -/
abbrev product2 {F : FTy → Type} [FloatOps F] (h : (⟨S100000x16, .f32⟩ : BufTy).Contents (Elt F)) (w : (⟨S16x64, .f32⟩ : BufTy).Contents (Elt F)) :
    (⟨S100000x64, .f32⟩ : BufTy).Contents (Elt F) :=
  Host.dotGeneral (F := F) (φ₁ := .f32) (φ₂ := .f32) dot_S100000x16_S16x64_S100000x64_1_0_0_1_n_n none h w

/-- The network: transform, propagate, relu, transform, propagate, log-softmax. -/
def network (x : (⟨S100000x512, .f32⟩ : BufTy).Contents (Elt Ideal)) (e : (⟨S2x3200000, .i32⟩ : BufTy).Contents (Elt Ideal))
    (w : (⟨S3200000, .f32⟩ : BufTy).Contents (Elt Ideal)) (W1 : (⟨S512x16, .f32⟩ : BufTy).Contents (Elt Ideal))
    (b1 : (⟨S16, .f32⟩ : BufTy).Contents (Elt Ideal)) (W2 : (⟨S16x64, .f32⟩ : BufTy).Contents (Elt Ideal))
    (b2 : (⟨S64, .f32⟩ : BufTy).Contents (Elt Ideal)) : (⟨S100000x64, .f32⟩ : BufTy).Contents (Elt Ideal) :=
  Cert.RowLogSoftmax.rowLogSoftmax
    (propagate64 (product2 (F := Ideal) (relu (propagate16 (product1 (F := Ideal) x W1) (sources e) (edgeNorm e w) (targets e) b1)) W2)
      (sources e) (edgeNorm e w) (targets e) b2)

end Cert.Gcn

end
-- ==== Proof.KernelValue.lean ====
/-
  The idealized kernel's RESULT as the network of its arguments: the fold of its buffer contents walked from the launch to
  the last boundary. A stretch of host operations is read by its stage function of the contents it starts at; a region
  leaves its output array at what its value lemma says (the three region facts are hypotheses `h1`, `h2`, `h3` here: the two
  row-blocked products are the whole products, the row-blocked log-softmax is the row-wise log-softmax) and every other
  buffer alone; the index vectors, the normalisation and the arguments are carried across the segments that do not write them.
-/
import proofs.«130012_j61950608277795_1_alg».proof.Proof.KernelStages
import proofs.«130012_j61950608277795_1_alg».proof.Proof.GcnNetwork

set_option maxRecDepth 16384

noncomputable section

namespace Cert.KernelIdeal.ResultValue

open Cert.KernelIdeal Cert.KernelIdeal.Gen Cert.KernelIdeal.Stages
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first region's entry -/

theorem src3 : W3 m ρ c (Proc.devRef .tc main_v3) = Cert.Gcn.sources (m ((c : Thread nD τ).loc main_arg1)) := sources_after (W0 m ρ c)
theorem dst3 : W3 m ρ c (Proc.devRef .tc main_v6) = Cert.Gcn.targets (m ((c : Thread nD τ).loc main_arg1)) := targets_after (W0 m ρ c)
theorem nrm3 : W3 m ρ c (Proc.devRef .tc main_v31) = Cert.Gcn.edgeNorm (m ((c : Thread nD τ).loc main_arg1)) (m ((c : Thread nD τ).loc main_arg2)) := edgeNorm_after (W0 m ρ c)
theorem x3 : W3 m ρ c (Proc.devRef .tc main_arg0) = (m ((c : Thread nD τ).loc main_arg0)) := arg0_after (W0 m ρ c)
theorem W1_3 : W3 m ρ c (Proc.devRef .tc main_arg3) = (m ((c : Thread nD τ).loc main_arg3)) := arg3_after (W0 m ρ c)
theorem b1_3 : W3 m ρ c (Proc.devRef .tc main_arg4) = (m ((c : Thread nD τ).loc main_arg4)) := arg4_after (W0 m ρ c)
theorem W2_3 : W3 m ρ c (Proc.devRef .tc main_arg5) = (m ((c : Thread nD τ).loc main_arg5)) := arg5_after (W0 m ρ c)
theorem b2_3 : W3 m ρ c (Proc.devRef .tc main_arg6) = (m ((c : Thread nD τ).loc main_arg6)) := arg6_after (W0 m ρ c)

/-! ## At the first region's exit: its output is x·W1, nothing else moved -/

theorem src4 : W4 m ρ c (Proc.devRef .tc main_v3) = Cert.Gcn.sources (m ((c : Thread nD τ).loc main_arg1)) := (W4_of_ne m ρ c main_v3 (by decide)).trans (src3 m ρ c)
theorem dst4 : W4 m ρ c (Proc.devRef .tc main_v6) = Cert.Gcn.targets (m ((c : Thread nD τ).loc main_arg1)) := (W4_of_ne m ρ c main_v6 (by decide)).trans (dst3 m ρ c)
theorem nrm4 : W4 m ρ c (Proc.devRef .tc main_v31) = Cert.Gcn.edgeNorm (m ((c : Thread nD τ).loc main_arg1)) (m ((c : Thread nD τ).loc main_arg2)) := (W4_of_ne m ρ c main_v31 (by decide)).trans (nrm3 m ρ c)
theorem b1_4 : W4 m ρ c (Proc.devRef .tc main_arg4) = (m ((c : Thread nD τ).loc main_arg4)) := (W4_of_ne m ρ c main_arg4 (by decide)).trans (b1_3 m ρ c)
theorem W2_4 : W4 m ρ c (Proc.devRef .tc main_arg5) = (m ((c : Thread nD τ).loc main_arg5)) := (W4_of_ne m ρ c main_arg5 (by decide)).trans (W2_3 m ρ c)
theorem b2_4 : W4 m ρ c (Proc.devRef .tc main_arg6) = (m ((c : Thread nD τ).loc main_arg6)) := (W4_of_ne m ρ c main_arg6 (by decide)).trans (b2_3 m ρ c)

section
variable (h1 : ∀ (V : (c : Dev nD) → (b : Ref sig .tc) → Buf (Elt Ideal) ((c : Thread nD τ).loc b)) (c : Dev nD),
    (Gen.dat0 (F := Ideal) V c).arrAt 2 cfg0.N = Cert.Gcn.product1 (V c main_arg0) (V c main_arg3))
include h1

theorem prod4 : W4 m ρ c (Proc.devRef .tc main_v32) = Cert.Gcn.product1 (m ((c : Thread nD τ).loc main_arg0)) (m ((c : Thread nD τ).loc main_arg3)) :=
  (W4_arr m ρ c 2).trans ((h1 (V3 m ρ) c).trans (congrArg₂ Cert.Gcn.product1 (x3 m ρ c) (W1_3 m ρ c)))

/-! ## At the second region's entry: one message-passing step and the relu -/

theorem hid6 : W6 m ρ c (Proc.devRef .tc main_v49)
    = Cert.Gcn.relu (Cert.Gcn.propagate16 (Cert.Gcn.product1 (m ((c : Thread nD τ).loc main_arg0)) (m ((c : Thread nD τ).loc main_arg3))) (Cert.Gcn.sources (m ((c : Thread nD τ).loc main_arg1))) (Cert.Gcn.edgeNorm (m ((c : Thread nD τ).loc main_arg1)) (m ((c : Thread nD τ).loc main_arg2))) (Cert.Gcn.targets (m ((c : Thread nD τ).loc main_arg1))) (m ((c : Thread nD τ).loc main_arg4))) := by
  refine (hidden_after (W4 m ρ c)).trans ?_
  rw [prod4 m ρ c h1, src4 m ρ c, nrm4 m ρ c, dst4 m ρ c, b1_4 m ρ c]

end

theorem src6 : W6 m ρ c (Proc.devRef .tc main_v3) = Cert.Gcn.sources (m ((c : Thread nD τ).loc main_arg1)) := (v3_mid (W4 m ρ c)).trans (src4 m ρ c)
theorem dst6 : W6 m ρ c (Proc.devRef .tc main_v6) = Cert.Gcn.targets (m ((c : Thread nD τ).loc main_arg1)) := (v6_mid (W4 m ρ c)).trans (dst4 m ρ c)
theorem nrm6 : W6 m ρ c (Proc.devRef .tc main_v31) = Cert.Gcn.edgeNorm (m ((c : Thread nD τ).loc main_arg1)) (m ((c : Thread nD τ).loc main_arg2)) := (v31_mid (W4 m ρ c)).trans (nrm4 m ρ c)
theorem W2_6 : W6 m ρ c (Proc.devRef .tc main_arg5) = (m ((c : Thread nD τ).loc main_arg5)) := (arg5_mid (W4 m ρ c)).trans (W2_4 m ρ c)
theorem b2_6 : W6 m ρ c (Proc.devRef .tc main_arg6) = (m ((c : Thread nD τ).loc main_arg6)) := (arg6_mid (W4 m ρ c)).trans (b2_4 m ρ c)

/-! ## At the second region's exit: its output is h·W2, nothing else moved -/

theorem src7 : W7 m ρ c (Proc.devRef .tc main_v3) = Cert.Gcn.sources (m ((c : Thread nD τ).loc main_arg1)) := (W7_of_ne m ρ c main_v3 (by decide)).trans (src6 m ρ c)
theorem dst7 : W7 m ρ c (Proc.devRef .tc main_v6) = Cert.Gcn.targets (m ((c : Thread nD τ).loc main_arg1)) := (W7_of_ne m ρ c main_v6 (by decide)).trans (dst6 m ρ c)
theorem nrm7 : W7 m ρ c (Proc.devRef .tc main_v31) = Cert.Gcn.edgeNorm (m ((c : Thread nD τ).loc main_arg1)) (m ((c : Thread nD τ).loc main_arg2)) := (W7_of_ne m ρ c main_v31 (by decide)).trans (nrm6 m ρ c)
theorem b2_7 : W7 m ρ c (Proc.devRef .tc main_arg6) = (m ((c : Thread nD τ).loc main_arg6)) := (W7_of_ne m ρ c main_arg6 (by decide)).trans (b2_6 m ρ c)

section
variable (h1 : ∀ (V : (c : Dev nD) → (b : Ref sig .tc) → Buf (Elt Ideal) ((c : Thread nD τ).loc b)) (c : Dev nD),
    (Gen.dat0 (F := Ideal) V c).arrAt 2 cfg0.N = Cert.Gcn.product1 (V c main_arg0) (V c main_arg3))
  (h2 : ∀ (V : (c : Dev nD) → (b : Ref sig .tc) → Buf (Elt Ideal) ((c : Thread nD τ).loc b)) (c : Dev nD),
    (Gen.dat1 (F := Ideal) V c).arrAt 2 cfg1.N = Cert.Gcn.product2 (V c main_v49) (V c main_arg5))
  (h3 : ∀ (V : (c : Dev nD) → (b : Ref sig .tc) → Buf (Elt Ideal) ((c : Thread nD τ).loc b)) (c : Dev nD),
    (Gen.dat2 (F := Ideal) V c).arrAt 1 cfg2.N = Cert.RowLogSoftmax.rowLogSoftmax (V c main_v66))
include h1 h2

theorem prod7 : W7 m ρ c (Proc.devRef .tc main_v50)
    = Cert.Gcn.product2 (Cert.Gcn.relu (Cert.Gcn.propagate16 (Cert.Gcn.product1 (m ((c : Thread nD τ).loc main_arg0)) (m ((c : Thread nD τ).loc main_arg3))) (Cert.Gcn.sources (m ((c : Thread nD τ).loc main_arg1))) (Cert.Gcn.edgeNorm (m ((c : Thread nD τ).loc main_arg1)) (m ((c : Thread nD τ).loc main_arg2))) (Cert.Gcn.targets (m ((c : Thread nD τ).loc main_arg1))) (m ((c : Thread nD τ).loc main_arg4)))) (m ((c : Thread nD τ).loc main_arg5)) :=
  (W7_arr m ρ c 2).trans ((h2 (V6 m ρ) c).trans (congrArg₂ Cert.Gcn.product2 (hid6 m ρ c h1) (W2_6 m ρ c)))

/-! ## At the last region's entry: the second message-passing step -/

theorem logits8 : W8 m ρ c (Proc.devRef .tc main_v66)
    = Cert.Gcn.propagate64 (Cert.Gcn.product2 (Cert.Gcn.relu (Cert.Gcn.propagate16 (Cert.Gcn.product1 (m ((c : Thread nD τ).loc main_arg0)) (m ((c : Thread nD τ).loc main_arg3))) (Cert.Gcn.sources (m ((c : Thread nD τ).loc main_arg1))) (Cert.Gcn.edgeNorm (m ((c : Thread nD τ).loc main_arg1)) (m ((c : Thread nD τ).loc main_arg2))) (Cert.Gcn.targets (m ((c : Thread nD τ).loc main_arg1))) (m ((c : Thread nD τ).loc main_arg4)))) (m ((c : Thread nD τ).loc main_arg5)))
        (Cert.Gcn.sources (m ((c : Thread nD τ).loc main_arg1))) (Cert.Gcn.edgeNorm (m ((c : Thread nD τ).loc main_arg1)) (m ((c : Thread nD τ).loc main_arg2))) (Cert.Gcn.targets (m ((c : Thread nD τ).loc main_arg1))) (m ((c : Thread nD τ).loc main_arg6)) := by
  refine (logits_after (W7 m ρ c)).trans ?_
  rw [prod7 m ρ c h1 h2, src7 m ρ c, nrm7 m ρ c, dst7 m ρ c, b2_7 m ρ c]

include h3

/-! ## At the end: the log-softmax of those logits -/

/-- The result buffer's final contents are the network of the seven arguments. -/
theorem result_eq : W9 m ρ c (Proc.devRef .tc main_v67) = Cert.Gcn.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W9_arr m ρ c 1).trans ((h3 (V8 m ρ) c).trans (congrArg Cert.RowLogSoftmax.rowLogSoftmax (logits8 m ρ c h1 h2)))

end

end Cert.KernelIdeal.ResultValue

end
-- ==== Proof.MatmulRegions.lean ====
import proofs.«130012_j61950608277795_1_alg».proof.Proof.Gen.KernelIdeal.Frame
import proofs.«130012_j61950608277795_1_alg».proof.Proof.Gen.ReferenceIdeal
import Idealize.ShloMosaic.Lib.Pipeline.Value
import Idealize.ShloMosaic.Lib.ValueIdx
import Idealize.ShloMosaic.PureOps.Ideal.Laws

/-!
# The two row-blocked matrix products are the whole matrix products

Each of the two matrix-product regions walks the rows of its left operand in equal blocks: at grid point t it
multiplies row block t of the left operand by the whole right operand and writes the result to row block t of the
output. At exact values a block's entry (p, q) is the sum over the inner positions k of left (B·t + p, k) · right (k, q),
which is entry (B·t + p, q) of the whole product; the row blocks tile the output, so the output array after the
region is the whole product of the two operand arrays as the region finds them.

* `plainDot_sum`: for dimension numbers that contract columns with rows, the contraction sum at (p, q) is the sum
  over the inner positions of lhs (p, k) · rhs (k, q).
* Layer 1 (`layer1_product`): [100000, 512] · [512, 16] in 20 row blocks of 5000.
* Layer 2 (`layer2_product`): [100000, 16] · [16, 64] in 10 row blocks of 10000.
-/

noncomputable section

namespace Cert.KernelIdeal.MatmulRegions

open Idealize.ShloMosaic Idealize.ShloMosaic.TcCoe Idealize.SL.Sem Cert.KernelIdeal Cert.KernelIdeal.Gen
open Idealize.ShloMosaic.Pipeline (Dat)

open scoped BigOperators

/-! ## A plain matrix product's contraction sum

For dimension numbers that contract the left operand's columns with the right operand's rows and keep no batch
axis, the operand indices at result index (p, q) and contraction position k are (p, k) and (k, q): the sum over
the one-axis contraction index type is the sum over the K column positions. -/

section PlainDot
variable {M K N : Nat}

theorem plainDot_lhsIdx (d : DotDims ⟨2, ![M, K]⟩ ⟨2, ![K, N]⟩ ⟨2, ![M, N]⟩)
    (hlb : d.lhsBatch = []) (hln : d.lhsNonContracting = [0]) (hlc : d.lhsContracting = [1])
    (p : Fin M) (q : Fin N) (k : d.contr.Idx) (k' : Fin K)
    (hk : (k ⟨0, by rw [d.rank_contr, hlc]; exact Nat.one_pos⟩ : ℕ) = k'.val) :
    d.lhsIdx (ValueIdx.ix2 p q) k = ValueIdx.ix2 p k' := by
  funext a; apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    have key : ∀ (a b : Nat) (ha : a < 2) (hb : b < 2), a = b →
        ((ValueIdx.ix2 p q : (⟨2, ![M, N]⟩ : Shape).Idx) ⟨a, ha⟩ : ℕ) = ((ValueIdx.ix2 p q : (⟨2, ![M, N]⟩ : Shape).Idx) ⟨b, hb⟩ : ℕ) :=
      fun a b ha hb h => by subst h; rfl
    exact key _ 0 _ (by decide) (by simp [hlb, hln])
  | ⟨1, _⟩ => exact (d.lhsIdx_val_of_single hlc (ValueIdx.ix2 p q) k).trans hk

theorem plainDot_rhsIdx (d : DotDims ⟨2, ![M, K]⟩ ⟨2, ![K, N]⟩ ⟨2, ![M, N]⟩)
    (hlb : d.lhsBatch = []) (hln : d.lhsNonContracting = [0])
    (hrb : d.rhsBatch = []) (hrn : d.rhsNonContracting = [1]) (hrc : d.rhsContracting = [0])
    (p : Fin M) (q : Fin N) (k : d.contr.Idx) (k' : Fin K)
    (hk : (k ⟨0, by rw [d.rank_contr, ← d.length_contracting, hrc]; exact Nat.one_pos⟩ : ℕ) = k'.val) :
    d.rhsIdx (ValueIdx.ix2 p q) k = ValueIdx.ix2 k' q := by
  funext a; apply Fin.ext
  match a with
  | ⟨0, _⟩ => exact (d.rhsIdx_val_of_single hrc (ValueIdx.ix2 p q) k).trans hk
  | ⟨1, _⟩ =>
    unfold DotDims.rhsIdx
    rw [dif_neg (by rw [hrb]; exact List.not_mem_nil), dif_pos (by rw [hrn]; exact List.mem_singleton.mpr rfl)]
    simp only [Fin.val_cast]
    have key : ∀ (a b : Nat) (ha : a < 2) (hb : b < 2), a = b →
        ((ValueIdx.ix2 p q : (⟨2, ![M, N]⟩ : Shape).Idx) ⟨a, ha⟩ : ℕ) = ((ValueIdx.ix2 p q : (⟨2, ![M, N]⟩ : Shape).Idx) ⟨b, hb⟩ : ℕ) :=
      fun a b ha hb h => by subst h; rfl
    exact key _ 1 _ (by decide) (by simp [hlb, hln, hrn])

/-- The contraction sum of a plain matrix product at (p, q) is the sum over the K inner positions. -/
theorem plainDot_sum (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (lhs : (⟨2, ![M, K]⟩ : Shape).Idx → EReal) (rhs : (⟨2, ![K, N]⟩ : Shape).Idx → EReal) (p : Fin M) (q : Fin N) :
    ∑ k : d.contr.Idx, lhs (d.lhsIdx (ValueIdx.ix2 p q) k) * rhs (d.rhsIdx (ValueIdx.ix2 p q) k)
      = ∑ k : Fin K, lhs (ValueIdx.ix2 p k) * rhs (ValueIdx.ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [← Equiv.sum_comp (ValueIdx.contrEquiv1 d K hr hs).symm]
  refine Finset.sum_congr rfl fun k _ => ?_
  have hk := ValueIdx.contrEquiv1_symm_val d K hr hs k
  rw [plainDot_lhsIdx d hlb hln hlc p q _ k hk, plainDot_rhsIdx d hlb hln hrb hrn hrc p q _ k hk]

end PlainDot

/-- The zero offsets of a whole-block access, however they are spelt. -/
theorem zeroOffsets : (![0, 0] : Fin 2 → Nat) = fun _ => 0 := funext fun a => by fin_cases a <;> rfl

/-! ## Layer 1: rows in blocks of 5000, inner extent 512, 16 columns -/

/-- The body's product of one row block: at (p, q) the sum over the 512 inner positions (the narrowing of the
    operands is the identity on exact values, and the accumulator is the zero splat). -/
theorem blockProduct1_apply (x0 : Vec Ideal S5000x512 .f32) (x1 : Vec Ideal S512x16 .f32) (p : Fin 5000) (q : Fin 16) :
    k0_pay1 x0 x1 (ValueIdx.ix2 p q) = ∑ k : Fin 512, x0 (ValueIdx.ix2 p k) * x1 (ValueIdx.ix2 k q) := by
  unfold k0_pay1
  simp only [matmul]
  rw [Ideal.matmul_constant_zero_apply]
  exact plainDot_sum dot_S5000x512_S512x16_S5000x16_1_0_0_1_n_n rfl rfl rfl rfl rfl rfl _ _ p q

/-- The whole product at (r, q): the same sum over the 512 inner positions. -/
theorem wholeProduct1_apply (a0 : Vec Ideal S100000x512 .f32) (a1 : Vec Ideal S512x16 .f32) (r : Fin 100000) (q : Fin 16) :
    Host.dotGeneral (F := Ideal) (φ₁ := .f32) (φ₂ := .f32) Cert.ReferenceIdeal.dot_S100000x512_S512x16_S100000x16_1_0_0_1_n_n none a0 a1 (ValueIdx.ix2 r q)
      = ∑ k : Fin 512, a0 (ValueIdx.ix2 r k) * a1 (ValueIdx.ix2 k q) := by
  simp only [Host.dotGeneral]
  rw [Ideal.dotGeneral_apply]
  exact plainDot_sum Cert.ReferenceIdeal.dot_S100000x512_S512x16_S100000x16_1_0_0_1_n_n rfl rfl rfl rfl rfl rfl _ _ r q

/-- The windows' index maps, decided over the 20 grid points: point t stages row block t of the left operand and of
    the result, and the one block of the right operand. -/
theorem rowBlock1_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row block t of the left operand, read at (p, k), is the operand at row 5000·t + p. -/
theorem leftBlock1_apply (V : (c : Dev nD) → (b : Ref sig .tc) → Buf (Elt Ideal) ((c : Thread nD τ).loc b)) (c : Dev nD) (t : Fin cfg0.N) (p : Fin 5000) (k : Fin 512)
    (h : t.val * 5000 + p.val < 100000) :
    iblk0 V c 0 t (ValueIdx.ix2 p k : S5000x512.Idx) = V c main_arg0 (ValueIdx.ix2 (⟨t.val * 5000 + p.val, h⟩ : Fin 100000) k) := by
  obtain ⟨e0, e1, -⟩ := rowBlock1_index t
  show V c main_arg0 (((cfg0.win 0).blk t).view.emb (ValueIdx.ix2 p k)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 512 + 1 * k.val = k.val; omega

/-- The one block of the right operand is the operand. -/
theorem rightBlock1_apply (V : (c : Dev nD) → (b : Ref sig .tc) → Buf (Elt Ideal) ((c : Thread nD τ).loc b)) (c : Dev nD) (t : Fin cfg0.N) (k : Fin 512) (q : Fin 16) :
    iblk0 V c 1 t (ValueIdx.ix2 k q : S512x16.Idx) = V c main_arg3 (ValueIdx.ix2 k q) := by
  obtain ⟨-, -, e2, e3, -⟩ := rowBlock1_index t
  show V c main_arg3 (((cfg0.win 1).blk t).view.emb (ValueIdx.ix2 k q)) = _
  refine congrArg (V c main_arg3) (funext fun a => Fin.ext ?_)
  match a with
  | ⟨0, _⟩ => show win0_1.index t (0 : Fin 2) * 512 + 1 * k.val = k.val; omega
  | ⟨1, _⟩ => show win0_1.index t (1 : Fin 2) * 16 + 1 * q.val = q.val; omega

/-- Row block t of the result sits in the result array at rows 5000·t + p. -/
theorem outBlock1_emb (t : Fin cfg0.N) (p : Fin 5000) (q : Fin 16) (h : t.val * 5000 + p.val < 100000) :
    ((cfg0.win 2).blk t).view.emb (ValueIdx.ix2 p q : S5000x16.Idx) = ValueIdx.ix2 (⟨t.val * 5000 + p.val, h⟩ : Fin 100000) q := by
  obtain ⟨-, -, -, -, e4, e5⟩ := rowBlock1_index t
  funext a; apply Fin.ext
  match a with
  | ⟨0, _⟩ => show win0_2.index t (0 : Fin 2) * 5000 + 1 * p.val = t.val * 5000 + p.val; omega
  | ⟨1, _⟩ => show win0_2.index t (1 : Fin 2) * 16 + 1 * q.val = q.val; omega

/-- What grid point t writes back is row block t of the whole product of the operands as the region finds them. -/
theorem flushed1_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S100000x512_S512x16_S100000x16_1_0_0_1_n_n none (V c main_arg0) (V c main_arg3)) := by
  show (cfg0.win 2).cut (grid0.coords t) ((dat0 V c).after 2 t) = _
  rw [after0_2]
  unfold out0_2
  rw [View.canon_unit_zero zeroOffsets]
  simp only [View.ld_unit_zero (S := S5000x512) zeroOffsets, View.ld_unit_zero (S := S512x16) zeroOffsets]
  funext j
  obtain ⟨p, q, rfl⟩ : ∃ (p : Fin 5000) (q : Fin 16), j = ValueIdx.ix2 p q := ⟨j 0, j 1, ValueIdx.eq_ix2 j⟩
  have ht : t.val < 20 := lt_of_lt_of_eq t.isLt N_0
  have hp : p.val < 5000 := p.isLt
  have h : t.val * 5000 + p.val < 100000 := by omega
  show k0_pay1 (iblk0 V c 0 t) (iblk0 V c 1 t) (ValueIdx.ix2 p q) = Host.dotGeneral (F := Ideal) (φ₁ := .f32) (φ₂ := .f32) Cert.ReferenceIdeal.dot_S100000x512_S512x16_S100000x16_1_0_0_1_n_n none (V c main_arg0) (V c main_arg3) (((cfg0.win 2).blk t).view.emb (ValueIdx.ix2 p q))
  refine ((blockProduct1_apply _ _ p q).trans ?_).trans
    ((congrArg _ (outBlock1_emb t p q h)).trans (wholeProduct1_apply (V c main_arg0) (V c main_arg3) _ q)).symm
  exact Finset.sum_congr rfl fun k _ => by rw [leftBlock1_apply V c t p k h, rightBlock1_apply V c t k q]

/-- An index of the result array is in point t's block iff each coordinate is in the block's range on its axis. -/
theorem mem_outBlock1 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v32).slice (win0_2.rect t)).set ↔ _
  rw [View.set_slice_whole, Rect.mem_set_unit]
  exact Iff.rfl

/-- Every row r of the result lies in the block that point r / 5000 writes back. -/
theorem cover1 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hlt : (i 0).val / 5000 < cfg0.N := by show _ < grid0.N; rw [N_0]; omega
  obtain ⟨-, -, -, -, e4, e5⟩ := rowBlock1_index ⟨(i 0).val / 5000, hlt⟩
  refine ⟨⟨(i 0).val / 5000, hlt⟩, flush0_2 _, ?_⟩
  rw [mem_outBlock1]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 16 ≤ (i 1).val ∧ (i 1).val < win0_2.index ⟨(i 0).val / 5000, hlt⟩ (1 : Fin 2) * 16 + 16
    rw [e5]; omega

/-- LAYER 1: the result array of the row-blocked product is the whole matrix product of the two operand arrays. -/
theorem layer1_product (V : (c : Dev nD) → (b : Ref sig .tc) → Buf (Elt Ideal) ((c : Thread nD τ).loc b)) (c : Dev nD) :
    (Gen.dat0 (F := Ideal) V c).arrAt 2 cfg0.N
      = Host.dotGeneral (F := Ideal) (φ₁ := .f32) (φ₂ := .f32) Cert.ReferenceIdeal.dot_S100000x512_S512x16_S100000x16_1_0_0_1_n_n none (V c main_arg0) (V c main_arg3) :=
  (Gen.dat0 (F := Ideal) V c).arrAt_eq_of_cover 2 _ (fun t _ => flushed1_eq V c t) cover1

/-! ## Layer 2: rows in blocks of 10000, inner extent 16, 64 columns -/

/-- The body's product of one row block: at (p, q) the sum over the 16 inner positions (the reshaping to the same
    shape and the narrowing of the operands are identities on exact values, and the accumulator is the zero splat). -/
theorem blockProduct2_apply (x0 : Vec Ideal S10000x16 .f32) (x1 : Vec Ideal S16x64 .f32) (p : Fin 10000) (q : Fin 64) :
    k1_pay1 x0 x1 (ValueIdx.ix2 p q) = ∑ k : Fin 16, x0 (ValueIdx.ix2 p k) * x1 (ValueIdx.ix2 k q) := by
  unfold k1_pay1
  simp only [matmul, shapeCast_self]
  rw [Ideal.matmul_constant_zero_apply]
  exact plainDot_sum dot_S10000x16_S16x64_S10000x64_1_0_0_1_n_n rfl rfl rfl rfl rfl rfl _ _ p q

/-- The whole product at (r, q): the same sum over the 16 inner positions. -/
theorem wholeProduct2_apply (a0 : Vec Ideal S100000x16 .f32) (a1 : Vec Ideal S16x64 .f32) (r : Fin 100000) (q : Fin 64) :
    Host.dotGeneral (F := Ideal) (φ₁ := .f32) (φ₂ := .f32) Cert.ReferenceIdeal.dot_S100000x16_S16x64_S100000x64_1_0_0_1_n_n none a0 a1 (ValueIdx.ix2 r q)
      = ∑ k : Fin 16, a0 (ValueIdx.ix2 r k) * a1 (ValueIdx.ix2 k q) := by
  simp only [Host.dotGeneral]
  rw [Ideal.dotGeneral_apply]
  exact plainDot_sum Cert.ReferenceIdeal.dot_S100000x16_S16x64_S100000x64_1_0_0_1_n_n rfl rfl rfl rfl rfl rfl _ _ r q

/-- The windows' index maps, decided over the 10 grid points: point t stages row block t of the left operand and of
    the result, and the one block of the right operand. -/
theorem rowBlock2_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row block t of the left operand, read at (p, k), is the operand at row 10000·t + p. -/
theorem leftBlock2_apply (V : (c : Dev nD) → (b : Ref sig .tc) → Buf (Elt Ideal) ((c : Thread nD τ).loc b)) (c : Dev nD) (t : Fin cfg1.N) (p : Fin 10000) (k : Fin 16)
    (h : t.val * 10000 + p.val < 100000) :
    iblk1 V c 0 t (ValueIdx.ix2 p k : S10000x16.Idx) = V c main_v49 (ValueIdx.ix2 (⟨t.val * 10000 + p.val, h⟩ : Fin 100000) k) := by
  obtain ⟨e0, e1, -⟩ := rowBlock2_index t
  show V c main_v49 (((cfg1.win 0).blk t).view.emb (ValueIdx.ix2 p k)) = _
  refine congrArg (V c main_v49) (funext fun a => Fin.ext ?_)
  match a with
  | ⟨0, _⟩ => show win1_0.index t (0 : Fin 2) * 10000 + 1 * p.val = t.val * 10000 + p.val; omega
  | ⟨1, _⟩ => show win1_0.index t (1 : Fin 2) * 16 + 1 * k.val = k.val; omega

/-- The one block of the right operand is the operand. -/
theorem rightBlock2_apply (V : (c : Dev nD) → (b : Ref sig .tc) → Buf (Elt Ideal) ((c : Thread nD τ).loc b)) (c : Dev nD) (t : Fin cfg1.N) (k : Fin 16) (q : Fin 64) :
    iblk1 V c 1 t (ValueIdx.ix2 k q : S16x64.Idx) = V c main_arg5 (ValueIdx.ix2 k q) := by
  obtain ⟨-, -, e2, e3, -⟩ := rowBlock2_index t
  show V c main_arg5 (((cfg1.win 1).blk t).view.emb (ValueIdx.ix2 k q)) = _
  refine congrArg (V c main_arg5) (funext fun a => Fin.ext ?_)
  match a with
  | ⟨0, _⟩ => show win1_1.index t (0 : Fin 2) * 16 + 1 * k.val = k.val; omega
  | ⟨1, _⟩ => show win1_1.index t (1 : Fin 2) * 64 + 1 * q.val = q.val; omega

/-- Row block t of the result sits in the result array at rows 10000·t + p. -/
theorem outBlock2_emb (t : Fin cfg1.N) (p : Fin 10000) (q : Fin 64) (h : t.val * 10000 + p.val < 100000) :
    ((cfg1.win 2).blk t).view.emb (ValueIdx.ix2 p q : S10000x64.Idx) = ValueIdx.ix2 (⟨t.val * 10000 + p.val, h⟩ : Fin 100000) q := by
  obtain ⟨-, -, -, -, e4, e5⟩ := rowBlock2_index t
  funext a; apply Fin.ext
  match a with
  | ⟨0, _⟩ => show win1_2.index t (0 : Fin 2) * 10000 + 1 * p.val = t.val * 10000 + p.val; omega
  | ⟨1, _⟩ => show win1_2.index t (1 : Fin 2) * 64 + 1 * q.val = q.val; omega

/-- What grid point t writes back is row block t of the whole product of the operands as the region finds them. -/
theorem flushed2_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal)
      (Host.dotGeneral (F := Ideal) (φ₁ := .f32) (φ₂ := .f32) Cert.ReferenceIdeal.dot_S100000x16_S16x64_S100000x64_1_0_0_1_n_n none (V c main_v49) (V c main_arg5)) := by
  show (cfg1.win 2).cut (grid1.coords t) ((dat1 V c).after 2 t) = _
  rw [after1_2]
  unfold out1_2
  rw [View.canon_unit_zero zeroOffsets]
  simp only [View.ld_unit_zero (S := S10000x16) zeroOffsets, View.ld_unit_zero (S := S16x64) zeroOffsets]
  funext j
  obtain ⟨p, q, rfl⟩ : ∃ (p : Fin 10000) (q : Fin 64), j = ValueIdx.ix2 p q := ⟨j 0, j 1, ValueIdx.eq_ix2 j⟩
  have ht : t.val < 10 := lt_of_lt_of_eq t.isLt N_1
  have hp : p.val < 10000 := p.isLt
  have h : t.val * 10000 + p.val < 100000 := by omega
  show k1_pay1 (iblk1 V c 0 t) (iblk1 V c 1 t) (ValueIdx.ix2 p q) = Host.dotGeneral (F := Ideal) (φ₁ := .f32) (φ₂ := .f32) Cert.ReferenceIdeal.dot_S100000x16_S16x64_S100000x64_1_0_0_1_n_n none (V c main_v49) (V c main_arg5) (((cfg1.win 2).blk t).view.emb (ValueIdx.ix2 p q))
  refine ((blockProduct2_apply _ _ p q).trans ?_).trans
    ((congrArg _ (outBlock2_emb t p q h)).trans (wholeProduct2_apply (V c main_v49) (V c main_arg5) _ q)).symm
  exact Finset.sum_congr rfl fun k _ => by rw [leftBlock2_apply V c t p k h, rightBlock2_apply V c t k q]

/-- An index of the result array is in point t's block iff each coordinate is in the block's range on its axis. -/
theorem mem_outBlock2 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v50).slice (win1_2.rect t)).set ↔ _
  rw [View.set_slice_whole, Rect.mem_set_unit]
  exact Iff.rfl

/-- Every row r of the result lies in the block that point r / 10000 writes back. -/
theorem cover2 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hlt : (i 0).val / 10000 < cfg1.N := by show _ < grid1.N; rw [N_1]; omega
  obtain ⟨-, -, -, -, e4, e5⟩ := rowBlock2_index ⟨(i 0).val / 10000, hlt⟩
  refine ⟨⟨(i 0).val / 10000, hlt⟩, flush1_2 _, ?_⟩
  rw [mem_outBlock2]
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ (1 : Fin 2) * 64 ≤ (i 1).val ∧ (i 1).val < win1_2.index ⟨(i 0).val / 10000, hlt⟩ (1 : Fin 2) * 64 + 64
    rw [e5]; omega

/-- LAYER 2: the result array of the row-blocked product is the whole matrix product of the two operand arrays. -/
theorem layer2_product (V : (c : Dev nD) → (b : Ref sig .tc) → Buf (Elt Ideal) ((c : Thread nD τ).loc b)) (c : Dev nD) :
    (Gen.dat1 (F := Ideal) V c).arrAt 2 cfg1.N
      = Host.dotGeneral (F := Ideal) (φ₁ := .f32) (φ₂ := .f32) Cert.ReferenceIdeal.dot_S100000x16_S16x64_S100000x64_1_0_0_1_n_n none (V c main_v49) (V c main_arg5) :=
  (Gen.dat1 (F := Ideal) V c).arrAt_eq_of_cover 2 _ (fun t _ => flushed2_eq V c t) cover2

end Cert.KernelIdeal.MatmulRegions

end
-- ==== Proof.SoftmaxRegion.lean ====
/-
  The row-blocked log-softmax region against the row-wise log-softmax of the whole array.

  One row of 64 extended reals f has the log-softmax  f j − M − log (∑ k, exp (f k − M)),  M the maximum of the row taken
  from −∞ (rowLsm). Three readings meet in it:
   · a [10000, 64] block's payload at (p, j) is rowLsm of the block's row p (blockPayload_apply): the two reductions along
     the columns are the fold of max and the sum over the 64 coordinates of the row, and the column made of them, broadcast
     along the rows, reads its entry p at every (p, j);
   · the reference's chain of operations on the [100000, 64] array at (r, j) is rowLsm of the array's row r
     (rowLogSoftmax_apply): the same fold and sum, the extra join with −∞ the identity, the initial 0 of the sum neutral;
   · block t of either window starts at row 10000·t, so row p of the input block at point t is row 10000·t + p of the array,
     and the output block's (p, j) is the array's (10000·t + p, j).
  A row's maximum and sum do not depend on the block the row sits in, so what point t writes back is block t of the array of
  row-wise log-softmaxes (flushed_eq); the ten blocks cover the array (row r falls to point r / 10000), hence the region's
  output array is that array (rows_lsmArray), which is the reference's function of the input array (rows_logSoftmax).
-/
import proofs.«130012_j61950608277795_1_alg».proof.Proof.Gen.KernelIdeal.Frame
import proofs.«130012_j61950608277795_1_alg».proof.Proof.RowLogSoftmax
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.SoftmaxRegion

open Idealize.ShloMosaic Idealize.ShloMosaic.TcCoe Idealize.SL.Sem Cert.KernelIdeal Cert.KernelIdeal.Gen
open Idealize.ShloMosaic.ValueIdx

section Layout
variable {α : Type} {n m : Nat}

/-- A reduced row index with column k put back is (p, k). -/
theorem lift_col (h : (⟨2, ![n, m]⟩ : Shape).Reduces [1] (⟨1, ![n]⟩ : Shape)) (p : Fin n)
    (k : Fin ((⟨2, ![n, m]⟩ : Shape).size 1)) : h.lift (ix1 p) k = ix2 p (⟨k.val, k.isLt⟩ : Fin m) := by
  funext c; apply Fin.ext
  fin_cases c <;> rfl

/-- A vector of n entries cast to one column, read at (p, 0), is entry p. -/
theorem shapeCast_col_apply (h : (⟨1, ![n]⟩ : Shape).ShapeCasts (⟨2, ![n, 1]⟩ : Shape)) (z : (⟨1, ![n]⟩ : Shape).Idx → α) (p : Fin n) :
    shapeCast (⟨2, ![n, 1]⟩ : Shape) z h (ix2 p (0 : Fin 1)) = z (ix1 p) := by
  refine shapeCast_apply z h _ _ ?_
  rw [Shape.rowMajor_val_one, Shape.rowMajor_val_two]
  show p.val = p.val * 1 + 0
  omega

/-- A column broadcast along the rows, read at (p, j), is the column's entry p. -/
theorem broadcastTo_col_apply (h : (⟨2, ![n, 1]⟩ : Shape).Broadcasts (⟨2, ![n, m]⟩ : Shape)) (y : (⟨2, ![n, 1]⟩ : Shape).Idx → α)
    (p : Fin n) (j : Fin m) :
    broadcastTo (⟨2, ![n, m]⟩ : Shape) y h (ix2 p j) = y (ix2 p (0 : Fin 1)) := by
  refine broadcastTo_apply y h _ _ ?_
  intro a
  match a with
  | ⟨0, _⟩ =>
    show p.val = if n = 1 then 0 else p.val
    split
    · have := p.isLt; omega
    · rfl
  | ⟨1, _⟩ => rfl

/-- A vector of n entries made a column and broadcast along the rows, read at (p, j), is entry p. -/
theorem colBroadcast_apply (hsc : (⟨1, ![n]⟩ : Shape).ShapeCasts (⟨2, ![n, 1]⟩ : Shape))
    (hb : (⟨2, ![n, 1]⟩ : Shape).Broadcasts (⟨2, ![n, m]⟩ : Shape)) (z : (⟨1, ![n]⟩ : Shape).Idx → α) (p : Fin n) (j : Fin m) :
    broadcastTo (⟨2, ![n, m]⟩ : Shape) (shapeCast (⟨2, ![n, 1]⟩ : Shape) z hsc) hb (ix2 p j) = z (ix1 p) :=
  (broadcastTo_col_apply hb _ p j).trans (shapeCast_col_apply hsc z p)

end Layout

/-! ## One row -/

/-- The maximum of a row of 64 entries, taken from −∞. -/
def rowMax (f : Fin 64 → EReal) : EReal :=
  (Finset.univ : Finset (Fin 64)).fold max (Ideal.ofBits .f32 0xFF800000#32) f

/-- The log-softmax of a row of 64 entries at column j. -/
def rowLsm (f : Fin 64 → EReal) (j : Fin 64) : EReal :=
  (f j - rowMax f) - Ideal.log (∑ k : Fin 64, Ideal.exp (f k - rowMax f))

/-- A maximum reduction along the columns from −∞, read at row p. -/
theorem colMax_apply (v : FVec Ideal S10000x64 .f32) (h : S10000x64.Reduces [1] S10000) (hφ : FKind.Formats .f32)
    (hacc : (0xFF800000#32 : BitVec 32) = FKind.maximumf.neutral .f32 hφ) (p : Fin 10000) :
    multiReduction .maximumf [1] S10000 v 0xFF800000#32 h hφ hacc (ix1 p) = rowMax fun k => v (ix2 p k) := by
  refine (Ideal.multiReduction_maximumf_single v _ h hφ hacc (ix1 p)).trans ?_
  have hf : (v ∘ h.lift (ix1 p)) = fun k : Fin 64 => v (ix2 p k) := funext fun k => congrArg v (lift_col h p k)
  exact congrArg (fun f => Finset.fold max (Ideal.ofBits .f32 0xFF800000#32) f (Finset.univ : Finset (Fin 64))) hf

/-- A sum reduction along the columns, read at row p. -/
theorem colSum_apply (v : FVec Ideal S10000x64 .f32) (h : S10000x64.Reduces [1] S10000) (hφ : FKind.Formats .f32)
    (hacc : (0x00000000#32 : BitVec 32) = FKind.add.neutral .f32 hφ) (p : Fin 10000) :
    multiReduction .add [1] S10000 v 0x00000000#32 h hφ hacc (ix1 p) = ∑ k : Fin 64, v (ix2 p k) := by
  refine (Ideal.multiReduction_add_single v _ h hφ hacc (ix1 p)).trans ?_
  exact Finset.sum_congr rfl fun k _ => congrArg v (lift_col h p k)

/-- A block minus a per-row quantity M, exponentiated, read at (p, k). -/
theorem expShift_apply (x0 : FVec Ideal S10000x64 .f32) (M : FVec Ideal S10000 .f32) (hsc : S10000.ShapeCasts S10000x1)
    (hb : S10000x1.Broadcasts S10000x64) (p : Fin 10000) (k : Fin 64) :
    exp (subf x0 (broadcastTo S10000x64 (shapeCast S10000x1 M hsc) hb)) (ix2 p k) = Ideal.exp (x0 (ix2 p k) - M (ix1 p)) := by
  show Ideal.exp (x0 (ix2 p k) - broadcastTo S10000x64 (shapeCast S10000x1 M hsc) hb (ix2 p k)) = _
  rw [colBroadcast_apply]

/-- A block minus a per-row quantity M, minus the logarithm of a per-row quantity Z, read at (p, j). -/
theorem shiftLog_apply (x0 : FVec Ideal S10000x64 .f32) (M Z : FVec Ideal S10000 .f32) (hsc : S10000.ShapeCasts S10000x1)
    (hb : S10000x1.Broadcasts S10000x64) (p : Fin 10000) (j : Fin 64) :
    subf (subf x0 (broadcastTo S10000x64 (shapeCast S10000x1 M hsc) hb))
        (broadcastTo S10000x64 (log (shapeCast S10000x1 Z hsc)) hb) (ix2 p j)
      = (x0 (ix2 p j) - M (ix1 p)) - Ideal.log (Z (ix1 p)) := by
  show (x0 (ix2 p j) - broadcastTo S10000x64 (shapeCast S10000x1 M hsc) hb (ix2 p j))
      - broadcastTo S10000x64 (Idealize.ShloMosaic.log (F := Ideal) (φ := .f32) (shapeCast S10000x1 Z hsc)) hb (ix2 p j) = _
  rw [colBroadcast_apply, broadcastTo_col_apply]
  show _ - Ideal.log (shapeCast S10000x1 Z hsc (ix2 p (0 : Fin 1))) = _
  rw [shapeCast_col_apply]

/-- The block's payload at (p, j) is the log-softmax of the block's row p at column j. -/
theorem blockPayload_apply (x0 : Vec Ideal S10000x64 .f32) (p : Fin 10000) (j : Fin 64) :
    Gen.k2_pay1 (F := Ideal) x0 (ix2 p j) = rowLsm (fun k => x0 (ix2 p k)) j := by
  unfold Gen.k2_pay1
  simp only [shapeCast_self]
  refine (shiftLog_apply x0 _ _ _ _ p j).trans ?_
  unfold rowLsm
  refine congrArg₂ (fun a b => (x0 (ix2 p j) - a) - Ideal.log b) (colMax_apply x0 _ _ _ p) ?_
  refine (colSum_apply _ _ _ _ p).trans (Finset.sum_congr rfl fun k _ => ?_)
  refine (expShift_apply x0 _ _ _ p k).trans ?_
  exact congrArg (fun a => Ideal.exp (x0 (ix2 p k) - a)) (colMax_apply x0 _ _ _ p)

/-! ## The host's operations on one row -/

section HostLayout
variable {α : Type} {n m : Nat}

/-- The host's broadcast of a column along the rows, read at (r, j), is the column's entry r. -/
theorem bcastCol_apply (h : (⟨2, ![n, 1]⟩ : Shape).BroadcastsInDim (⟨2, ![n, m]⟩ : Shape) ![0, 1])
    (y : (⟨2, ![n, 1]⟩ : Shape).Idx → α) (r : Fin n) (j : Fin m) :
    broadcastInDim (⟨2, ![n, m]⟩ : Shape) ![0, 1] h y (ix2 r j) = y (ix2 r (0 : Fin 1)) := by
  refine broadcastInDim_apply _ h y _ _ ?_
  intro a
  match a with
  | ⟨0, _⟩ =>
    show r.val = if n = 1 then 0 else r.val
    split
    · have := r.isLt; omega
    · rfl
  | ⟨1, _⟩ => rfl

/-- The host's broadcast of a vector of n entries to one column, read at (r, 0), is entry r. -/
theorem bcastToCol_apply (h : (⟨1, ![n]⟩ : Shape).BroadcastsInDim (⟨2, ![n, 1]⟩ : Shape) ![0])
    (z : (⟨1, ![n]⟩ : Shape).Idx → α) (r : Fin n) :
    broadcastInDim (⟨2, ![n, 1]⟩ : Shape) ![0] h z (ix2 r (0 : Fin 1)) = z (ix1 r) := by
  refine broadcastInDim_apply _ h z _ _ ?_
  intro a
  match a with
  | ⟨0, _⟩ =>
    show r.val = if n = 1 then 0 else r.val
    split
    · have := r.isLt; omega
    · rfl

end HostLayout

/-- −∞ joined with anything is that thing. -/
theorem max_negInf (y : EReal) : max (Ideal.ofBits .f32 0xFF800000#32) y = y := by
  simp [Ideal.ofBits, Ideal.ieee]

/-- The zero word is zero. -/
theorem ofBits_zero : Ideal.ofBits .f32 0x00000000#32 = 0 := by
  simp [Ideal.ofBits, Ideal.ieee]

section Host
variable {n : Nat}

/-- The host's maximum reduction along the columns from −∞, read at row r. -/
theorem hostColMax_apply (x : FVec Ideal (⟨2, ![n, 64]⟩ : Shape) .f32)
    (h' : (⟨2, ![n, 64]⟩ : Shape).ReducesTo [1] (⟨1, ![n]⟩ : Shape)) (h : (⟨2, ![n, 64]⟩ : Shape).Reduces [1] (⟨1, ![n]⟩ : Shape))
    (hu : 0 < (⟨0, ![]⟩ : Shape).numel) (r : Fin n) :
    Host.reduce FloatOps.maximumf x (constant (F := Ideal) (⟨0, ![]⟩ : Shape) .f32 0xFF800000#32) h' hu (ix1 r)
      = rowMax fun k => x (ix2 r k) := by
  rw [Host.reduce_eq_fold_single FloatOps.maximumf x _ h' h hu]
  have hf : (x ∘ h.lift (ix1 r)) = fun k : Fin 64 => x (ix2 r k) := funext fun k => congrArg x (lift_col h r k)
  exact congrArg (fun f => Finset.fold max (Ideal.ofBits .f32 0xFF800000#32) f (Finset.univ : Finset (Fin 64))) hf

/-- The host's sum reduction along the columns from zero, read at row r. -/
theorem hostColSum_apply (v : FVec Ideal (⟨2, ![n, 64]⟩ : Shape) .f32)
    (h' : (⟨2, ![n, 64]⟩ : Shape).ReducesTo [1] (⟨1, ![n]⟩ : Shape)) (h : (⟨2, ![n, 64]⟩ : Shape).Reduces [1] (⟨1, ![n]⟩ : Shape))
    (hu : 0 < (⟨0, ![]⟩ : Shape).numel) (r : Fin n) :
    Host.reduceAdd (F := Ideal) v (constant (F := Ideal) (⟨0, ![]⟩ : Shape) .f32 0x00000000#32) h' hu (ix1 r)
      = ∑ k : Fin 64, v (ix2 r k) := by
  show Ideal.hostReduceAdd h' v (Ideal.ofBits .f32 0x00000000#32) (ix1 r) = _
  rw [Ideal.hostReduceAdd_single h' h, ofBits_zero, zero_add]
  exact Finset.sum_congr rfl fun k _ => congrArg v (lift_col h r k)

end Host

/-! ## The host's row-wise log-softmax at an index -/

section HostRow
variable {n : Nat}

/-- An array minus a per-row quantity M as the host broadcasts it, read at (r, k). -/
theorem hostShift_apply (x : FVec Ideal (⟨2, ![n, 64]⟩ : Shape) .f32) (M : FVec Ideal (⟨1, ![n]⟩ : Shape) .f32)
    (hb1 : (⟨1, ![n]⟩ : Shape).BroadcastsInDim (⟨2, ![n, 1]⟩ : Shape) ![0])
    (hb2 : (⟨2, ![n, 1]⟩ : Shape).BroadcastsInDim (⟨2, ![n, 64]⟩ : Shape) ![0, 1]) (r : Fin n) (k : Fin 64) :
    subf x (broadcastInDim (⟨2, ![n, 64]⟩ : Shape) ![0, 1] hb2 (broadcastInDim (⟨2, ![n, 1]⟩ : Shape) ![0] hb1 M)) (ix2 r k)
      = x (ix2 r k) - M (ix1 r) := by
  show x (ix2 r k) - broadcastInDim (⟨2, ![n, 64]⟩ : Shape) ![0, 1] hb2 (broadcastInDim (⟨2, ![n, 1]⟩ : Shape) ![0] hb1 M) (ix2 r k) = _
  rw [bcastCol_apply, bcastToCol_apply]

/-- The host's row maximum from −∞, joined once more with −∞, read at row r. -/
theorem hostRowMax_apply (x : FVec Ideal (⟨2, ![n, 64]⟩ : Shape) .f32)
    (hb0 : (⟨0, ![]⟩ : Shape).BroadcastsInDim (⟨1, ![n]⟩ : Shape) ![])
    (h' : (⟨2, ![n, 64]⟩ : Shape).ReducesTo [1] (⟨1, ![n]⟩ : Shape)) (h : (⟨2, ![n, 64]⟩ : Shape).Reduces [1] (⟨1, ![n]⟩ : Shape))
    (hu : 0 < (⟨0, ![]⟩ : Shape).numel) (r : Fin n) :
    maximumf (broadcastInDim (⟨1, ![n]⟩ : Shape) ![] hb0 (constant (F := Ideal) (⟨0, ![]⟩ : Shape) .f32 0xFF800000#32))
        (Host.reduce FloatOps.maximumf x (constant (F := Ideal) (⟨0, ![]⟩ : Shape) .f32 0xFF800000#32) h' hu) (ix1 r)
      = rowMax fun k => x (ix2 r k) :=
  (max_negInf _).trans (hostColMax_apply x h' h hu r)

/-- The host's shifted array at (r, k): the entry minus its row's maximum. -/
theorem hostShifted_apply (x : FVec Ideal (⟨2, ![n, 64]⟩ : Shape) .f32)
    (hb0 : (⟨0, ![]⟩ : Shape).BroadcastsInDim (⟨1, ![n]⟩ : Shape) ![])
    (hb1 : (⟨1, ![n]⟩ : Shape).BroadcastsInDim (⟨2, ![n, 1]⟩ : Shape) ![0])
    (hb2 : (⟨2, ![n, 1]⟩ : Shape).BroadcastsInDim (⟨2, ![n, 64]⟩ : Shape) ![0, 1])
    (h' : (⟨2, ![n, 64]⟩ : Shape).ReducesTo [1] (⟨1, ![n]⟩ : Shape)) (h : (⟨2, ![n, 64]⟩ : Shape).Reduces [1] (⟨1, ![n]⟩ : Shape))
    (hu : 0 < (⟨0, ![]⟩ : Shape).numel) (r : Fin n) (k : Fin 64) :
    subf x (broadcastInDim (⟨2, ![n, 64]⟩ : Shape) ![0, 1] hb2 (broadcastInDim (⟨2, ![n, 1]⟩ : Shape) ![0] hb1
        (maximumf (broadcastInDim (⟨1, ![n]⟩ : Shape) ![] hb0 (constant (F := Ideal) (⟨0, ![]⟩ : Shape) .f32 0xFF800000#32))
          (Host.reduce FloatOps.maximumf x (constant (F := Ideal) (⟨0, ![]⟩ : Shape) .f32 0xFF800000#32) h' hu)))) (ix2 r k)
      = x (ix2 r k) - rowMax fun k' => x (ix2 r k') :=
  (hostShift_apply x _ hb1 hb2 r k).trans (congrArg (fun a => x (ix2 r k) - a) (hostRowMax_apply x hb0 h' h hu r))

/-- An array S minus, row by row, the logarithm of the host's sum of its exponentials, read at (r, j). -/
theorem hostLogSum_apply (S : FVec Ideal (⟨2, ![n, 64]⟩ : Shape) .f32)
    (hb1 : (⟨1, ![n]⟩ : Shape).BroadcastsInDim (⟨2, ![n, 1]⟩ : Shape) ![0])
    (hb2 : (⟨2, ![n, 1]⟩ : Shape).BroadcastsInDim (⟨2, ![n, 64]⟩ : Shape) ![0, 1])
    (h' : (⟨2, ![n, 64]⟩ : Shape).ReducesTo [1] (⟨1, ![n]⟩ : Shape)) (h : (⟨2, ![n, 64]⟩ : Shape).Reduces [1] (⟨1, ![n]⟩ : Shape))
    (hu : 0 < (⟨0, ![]⟩ : Shape).numel) (r : Fin n) (j : Fin 64) :
    subf S (broadcastInDim (⟨2, ![n, 64]⟩ : Shape) ![0, 1] hb2 (Host.log (F := Ideal) (broadcastInDim (⟨2, ![n, 1]⟩ : Shape) ![0] hb1
        (Host.reduceAdd (F := Ideal) (Host.exp (F := Ideal) S) (constant (F := Ideal) (⟨0, ![]⟩ : Shape) .f32 0x00000000#32) h' hu)))) (ix2 r j)
      = S (ix2 r j) - Ideal.log (∑ k : Fin 64, Ideal.exp (S (ix2 r k))) := by
  show S (ix2 r j) - broadcastInDim (⟨2, ![n, 64]⟩ : Shape) ![0, 1] hb2 (Host.log (F := Ideal) (broadcastInDim (⟨2, ![n, 1]⟩ : Shape) ![0] hb1
        (Host.reduceAdd (F := Ideal) (Host.exp (F := Ideal) S) (constant (F := Ideal) (⟨0, ![]⟩ : Shape) .f32 0x00000000#32) h' hu))) (ix2 r j) = _
  rw [bcastCol_apply]
  show _ - Ideal.log (broadcastInDim (⟨2, ![n, 1]⟩ : Shape) ![0] hb1
        (Host.reduceAdd (F := Ideal) (Host.exp (F := Ideal) S) (constant (F := Ideal) (⟨0, ![]⟩ : Shape) .f32 0x00000000#32) h' hu) (ix2 r (0 : Fin 1))) = _
  rw [bcastToCol_apply, hostColSum_apply _ h' h hu r]
  rfl

end HostRow

/-- Dropping the columns of a [100000, 64] array leaves its 100000 rows. -/
theorem reduces100000 : (⟨2, ![100000, 64]⟩ : Shape).Reduces [1] (⟨1, ![100000]⟩ : Shape) := by decide

/-- The host's shifted array at (r, k). -/
theorem shifted_apply (x : FVec Ideal Cert.ReferenceIdeal.S100000x64 .f32) (r : Fin 100000) (k : Fin 64) :
    Cert.RowLogSoftmax.shifted x (ix2 r k) = x (ix2 r k) - rowMax fun k' => x (ix2 r k') :=
  hostShifted_apply x _ _ _ _ reduces100000 _ r k

/-- The host's row-wise log-softmax at (r, j): the shifted entry minus the logarithm of the row's sum of exponentials. -/
theorem rowLogSoftmax_shifted (x : FVec Ideal Cert.ReferenceIdeal.S100000x64 .f32) (r : Fin 100000) (j : Fin 64) :
    Cert.RowLogSoftmax.rowLogSoftmax x (ix2 r j)
      = Cert.RowLogSoftmax.shifted x (ix2 r j) - Ideal.log (∑ k : Fin 64, Ideal.exp (Cert.RowLogSoftmax.shifted x (ix2 r k))) :=
  hostLogSum_apply (n := 100000) (Cert.RowLogSoftmax.shifted x) Cert.ReferenceIdeal.Gen.bcast_S100000_S100000x1_0
    Cert.ReferenceIdeal.Gen.bcast_S100000x1_S100000x64_0_1 Cert.ReferenceIdeal.Gen.reducesTo_S100000x64_S100000_d1 reduces100000
    Cert.ReferenceIdeal.Gen.h_S_ r j

/-- The host's row-wise log-softmax at (r, j) is the log-softmax of row r at column j. -/
theorem rowLogSoftmax_apply (x : FVec Ideal Cert.ReferenceIdeal.S100000x64 .f32) (r : Fin 100000) (j : Fin 64) :
    Cert.RowLogSoftmax.rowLogSoftmax x (ix2 r j) = rowLsm (fun k => x (ix2 r k)) j := by
  refine (rowLogSoftmax_shifted x r j).trans ?_
  exact congrArg₂ (fun a b => a - Ideal.log b) (shifted_apply x r j)
    (Finset.sum_congr rfl fun k _ => congrArg Ideal.exp (shifted_apply x r k))

/-! ## The region: blocks of 10000 rows -/

/-- The array of row-wise log-softmaxes. -/
def lsmArray (X : FVec Ideal S100000x64 .f32) : FVec Ideal S100000x64 .f32 :=
  fun i => rowLsm (fun k => X (ix2 (⟨(i 0).val, idx2_lt0 i⟩ : Fin 100000) k)) ⟨(i 1).val, idx2_lt1 i⟩

/-- At (r, j) it is the log-softmax of row r at column j. -/
theorem lsmArray_apply (X : FVec Ideal S100000x64 .f32) (r : Fin 100000) (j : Fin 64) :
    lsmArray X (ix2 r j) = rowLsm (fun k => X (ix2 r k)) j := rfl

/-- The body reads and writes its whole staging block: offsets (0, 0). -/
theorem zeroOffsets : (![0, 0] : Fin 2 → Nat) = fun _ => 0 := funext fun a => by fin_cases a <;> rfl

/-- Both windows' block index at grid point t is (t, 0). -/
theorem blockIndex : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The grid has ten points. -/
theorem point_lt (t : Fin cfg2.N) : t.val < 10 := by
  have h := t.isLt
  have e : cfg2.N = 10 := N_2
  omega

/-- The input block at point t, read at (p, k), is the array at row 10000·t + p. -/
theorem inputBlock_apply (V : (c : Dev nD) → (b : Ref sig .tc) → Buf (Elt Ideal) ((c : Thread nD τ).loc b)) (c : Dev nD)
    (t : Fin cfg2.N) (p : Fin 10000) (k : Fin 64) (hr : 10000 * t.val + p.val < 100000) :
    Gen.iblk2 (F := Ideal) V c 0 t (ix2 p k) = V c main_v66 (ix2 (⟨10000 * t.val + p.val, hr⟩ : Fin 100000) k) := by
  show V c main_v66 (((cfg2.win 0).blk t).view.emb (ix2 p k)) = _
  refine congrArg (V c main_v66) ?_
  obtain ⟨e0, e1, -, -⟩ := blockIndex t
  funext a; apply Fin.ext
  match a with
  | ⟨0, _⟩ => show win2_0.index t (0 : Fin 2) * 10000 + 1 * p.val = 10000 * t.val + p.val; omega
  | ⟨1, _⟩ => show win2_0.index t (1 : Fin 2) * 64 + 1 * k.val = k.val; omega

/-- The output block's place at point t: (p, q) of the block is (10000·t + p, q) of the array. -/
theorem outputBlock_emb (t : Fin cfg2.N) (p : Fin 10000) (q : Fin 64) (hr : 10000 * t.val + p.val < 100000) :
    ((cfg2.win 1).blk t).view.emb (ix2 p q) = ix2 (⟨10000 * t.val + p.val, hr⟩ : Fin 100000) q := by
  obtain ⟨-, -, e0, e1⟩ := blockIndex t
  funext a; apply Fin.ext
  match a with
  | ⟨0, _⟩ => show win2_1.index t (0 : Fin 2) * 10000 + 1 * p.val = 10000 * t.val + p.val; omega
  | ⟨1, _⟩ => show win2_1.index t (1 : Fin 2) * 64 + 1 * q.val = q.val; omega

/-- What point t writes back is block t of the array of row-wise log-softmaxes. -/
theorem flushed_eq (V : (c : Dev nD) → (b : Ref sig .tc) → Buf (Elt Ideal) ((c : Thread nD τ).loc b)) (c : Dev nD)
    (t : Fin cfg2.N) :
    (Gen.dat2 (F := Ideal) V c).flushed 1 t = ((cfg2.win 1).blk t).view.read (Elt Ideal) (lsmArray (V c main_v66)) := by
  show (cfg2.win 1).cut (grid2.coords t) ((Gen.dat2 (F := Ideal) V c).after 1 t) = _
  rw [Gen.after2_1]
  unfold Gen.out2_1
  rw [View.canon_unit_zero zeroOffsets]
  simp only [View.ld_unit_zero (S := S10000x64) zeroOffsets]
  funext j
  obtain ⟨p, q, rfl⟩ : ∃ (p : Fin 10000) (q : Fin 64), j = ix2 p q := ⟨j 0, j 1, eq_ix2 j⟩
  have hr : 10000 * t.val + p.val < 100000 := by have := point_lt t; have := p.isLt; omega
  show Gen.k2_pay1 (F := Ideal) (Gen.iblk2 V c 0 t) (ix2 p q) = lsmArray (V c main_v66) (((cfg2.win 1).blk t).view.emb (ix2 p q))
  rw [outputBlock_emb t p q hr, lsmArray_apply]
  refine (blockPayload_apply _ p q).trans ?_
  refine congrArg (fun f => rowLsm f q) (funext fun k => ?_)
  exact inputBlock_apply V c t p k hr

/-- An index of the array is in point t's block iff each coordinate is in the block's range on its axis. -/
theorem mem_outputBlock (t : Fin cfg2.N) (i : S100000x64.Idx) :
    i ∈ ((cfg2.win 1).blk t).view.set ↔ ∀ a : Fin 2, win2_1.index t a * S10000x64.size a ≤ (i a).val
      ∧ (i a).val < win2_1.index t a * S10000x64.size a + S10000x64.size a := by
  show i ∈ ((View.whole main_v67).slice (win2_1.rect t)).set ↔ _
  rw [View.set_slice_whole, Rect.mem_set_unit]
  exact Iff.rfl

/-- Every index of the array lies in the block of the point its row falls to: row r in point r / 10000. -/
theorem covered (i : S100000x64.Idx) :
    ∃ t : Fin cfg2.N, (cfg2.win 1).flush t = true ∧ i ∈ ((cfg2.win 1).blk t).view.set := by
  have hi0 : (i 0).val < 100000 := idx2_lt0 i
  have hi1 : (i 1).val < 64 := idx2_lt1 i
  have hN : cfg2.N = 10 := N_2
  let t : Fin cfg2.N := ⟨(i 0).val / 10000, by omega⟩
  have ht : t.val = (i 0).val / 10000 := rfl
  obtain ⟨-, -, e0, e1⟩ := blockIndex t
  refine ⟨t, Gen.flush2_1 t, ?_⟩
  rw [mem_outputBlock]
  intro a
  match a with
  | ⟨0, _⟩ => show win2_1.index t (0 : Fin 2) * 10000 ≤ (i 0).val ∧ (i 0).val < win2_1.index t (0 : Fin 2) * 10000 + 10000; omega
  | ⟨1, _⟩ => show win2_1.index t (1 : Fin 2) * 64 ≤ (i 1).val ∧ (i 1).val < win2_1.index t (1 : Fin 2) * 64 + 64; omega

/-- The region's output array is the array of row-wise log-softmaxes of its input array. -/
theorem rows_lsmArray (V : (c : Dev nD) → (b : Ref sig .tc) → Buf (Elt Ideal) ((c : Thread nD τ).loc b)) (c : Dev nD) :
    (Gen.dat2 (F := Ideal) V c).arrAt 1 cfg2.N = lsmArray (V c main_v66) :=
  (Gen.dat2 (F := Ideal) V c).arrAt_eq_of_cover 1 (lsmArray (V c main_v66)) (fun t _ => flushed_eq V c t) covered

/-- The row-blocked log-softmax region leaves the host's row-wise log-softmax of the whole array. -/
theorem rows_logSoftmax (V : (c : Dev nD) → (b : Ref sig .tc) → Buf (Elt Ideal) ((c : Thread nD τ).loc b)) (c : Dev nD) :
    (Gen.dat2 (F := Ideal) V c).arrAt 1 cfg2.N = Cert.RowLogSoftmax.rowLogSoftmax (V c main_v66) := by
  refine (rows_lsmArray V c).trans (funext fun i => ?_)
  obtain ⟨r, j, rfl⟩ : ∃ (r : Fin 100000) (j : Fin 64), i = ix2 r j := ⟨i 0, i 1, eq_ix2 i⟩
  exact (lsmArray_apply _ r j).trans (rowLogSoftmax_apply _ r j).symm

end Cert.KernelIdeal.SoftmaxRegion

end
-- ==== Proof.RefStages.lean ====
/-
  The reference program's run, read stretch by stretch. Its @main is one line of 100 host operations; the fold of their
  results over the launch contents is cut into four consecutive pieces — through the first matrix product x·W1 (the sources,
  the targets and the per-edge normalisation on the way), through the second product h·W2 (one message-passing step and the
  relu first), through the logits (the second message-passing step), and the row-wise log-softmax — and each piece is read
  from ANY contents it starts at as its stage function of the buffers it reads. Chained, the result buffer ends at the network
  of the seven arguments, which no operation writes.
-/
import proofs.«130012_j61950608277795_1_alg».proof.Proof.RefRun
import proofs.«130012_j61950608277795_1_alg».proof.Proof.GcnNetwork
import Idealize.ShloMosaic.Lib.StableHlo.Run

set_option maxRecDepth 16384
set_option Elab.async false

noncomputable section

namespace Cert.ReferenceIdeal.Stages

open Cert.ReferenceIdeal Cert.ReferenceIdeal.Gen Cert.ReferenceIdeal.ValueP
open Idealize.ShloMosaic Idealize.ShloMosaic.TcCoe Idealize.SL.Sem Idealize.ShloMosaic.StableHlo

/-- The fold over a line of operations made of two lines is the second line's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Contents moved to a typed reference's buffer type and back are unchanged (the operations of an inlined function carry
    their values through such round trips). -/
theorem ofBuf_toBuf {sig : RefSig} {T : BufTy} {Val : EltTy → Type} (x : TRef sig T) (v : T.Contents Val) : x.ofBuf (x.toBuf v) = v := by
  obtain ⟨r, h, h2, h3⟩ := x
  subst h
  rfl

section Pieces

variable {F : FTy → Type} [FloatOps F]

/-- Operations 1–43: through the first matrix product. -/
abbrev piece1 : List (HloOp τ sig (Elt F)) := (ops (F := F)).take 43
/-- Operations 44–66: through the second matrix product. -/
abbrev piece2 : List (HloOp τ sig (Elt F)) := ((ops (F := F)).drop 43).take 23
/-- Operations 67–85: through the logits. -/
abbrev piece3 : List (HloOp τ sig (Elt F)) := ((ops (F := F)).drop 66).take 19
/-- Operations 86–100: the row-wise log-softmax. -/
abbrev piece4 : List (HloOp τ sig (Elt F)) := (ops (F := F)).drop 85

/-- The line is its four pieces in order. -/
theorem ops_pieces : (ops : List (HloOp τ sig (Elt F))) = piece1 ++ (piece2 ++ (piece3 ++ piece4)) := rfl

variable (V : Valuation τ sig (Elt F))

/-! ### Piece 1 -/

theorem sources1 : after piece1 V (Proc.devRef .tc main_v3) = Cert.Gcn.sources (F := F) (V (Proc.devRef .tc main_arg1)) := by
  simp only [piece1, ops, List.take_succ_cons, List.take_zero]; after_results_simp; try simp only [ofBuf_toBuf]
  rfl
theorem targets1 : after piece1 V (Proc.devRef .tc main_v6) = Cert.Gcn.targets (F := F) (V (Proc.devRef .tc main_arg1)) := by
  simp only [piece1, ops, List.take_succ_cons, List.take_zero]; after_results_simp; try simp only [ofBuf_toBuf]
  rfl
theorem edgeNorm1 : after piece1 V (Proc.devRef .tc main_v31)
    = Cert.Gcn.edgeNorm (F := F) (V (Proc.devRef .tc main_arg1)) (V (Proc.devRef .tc main_arg2)) := by
  simp only [piece1, ops, List.take_succ_cons, List.take_zero]; after_results_simp; try simp only [ofBuf_toBuf]
  rfl
theorem arg4_1 : after piece1 V (Proc.devRef .tc main_arg4) = V (Proc.devRef .tc main_arg4) := by
  simp only [piece1, ops, List.take_succ_cons, List.take_zero]; after_results_simp
theorem arg5_1 : after piece1 V (Proc.devRef .tc main_arg5) = V (Proc.devRef .tc main_arg5) := by
  simp only [piece1, ops, List.take_succ_cons, List.take_zero]; after_results_simp
theorem arg6_1 : after piece1 V (Proc.devRef .tc main_arg6) = V (Proc.devRef .tc main_arg6) := by
  simp only [piece1, ops, List.take_succ_cons, List.take_zero]; after_results_simp

/-! ### Pieces 2 and 3: the buffers they carry, and the message-passing steps -/

theorem v3_2 : after piece2 V (Proc.devRef .tc main_v3) = V (Proc.devRef .tc main_v3) := by
  simp only [piece2, ops, List.drop_succ_cons, List.drop_zero, List.take_succ_cons, List.take_zero]; after_results_simp
theorem v6_2 : after piece2 V (Proc.devRef .tc main_v6) = V (Proc.devRef .tc main_v6) := by
  simp only [piece2, ops, List.drop_succ_cons, List.drop_zero, List.take_succ_cons, List.take_zero]; after_results_simp
theorem v31_2 : after piece2 V (Proc.devRef .tc main_v31) = V (Proc.devRef .tc main_v31) := by
  simp only [piece2, ops, List.drop_succ_cons, List.drop_zero, List.take_succ_cons, List.take_zero]; after_results_simp
theorem arg6_2 : after piece2 V (Proc.devRef .tc main_arg6) = V (Proc.devRef .tc main_arg6) := by
  simp only [piece2, ops, List.drop_succ_cons, List.drop_zero, List.take_succ_cons, List.take_zero]; after_results_simp

theorem logits3 : after piece3 V (Proc.devRef .tc main_v66)
    = Cert.Gcn.propagate64 (F := F) (V (Proc.devRef .tc main_v50)) (V (Proc.devRef .tc main_v3)) (V (Proc.devRef .tc main_v31))
        (V (Proc.devRef .tc main_v6)) (V (Proc.devRef .tc main_arg6)) := by
  simp only [piece3, ops, List.drop_succ_cons, List.drop_zero, List.take_succ_cons, List.take_zero]; after_results_simp; try simp only [ofBuf_toBuf]
  rfl

/-! ### The two matrix products, after what feeds them -/

theorem product1_1 : after piece1 V (Proc.devRef .tc main_v32)
    = Cert.Gcn.product1 (F := F) (V (Proc.devRef .tc main_arg0)) (V (Proc.devRef .tc main_arg3)) := by
  simp only [piece1, ops, List.take_succ_cons, List.take_zero]; after_results_simp

theorem product2_2 : after piece2 V (Proc.devRef .tc main_v50)
    = Cert.Gcn.product2 (F := F) (Cert.Gcn.relu (Cert.Gcn.propagate16 (V (Proc.devRef .tc main_v32)) (V (Proc.devRef .tc main_v3)) (V (Proc.devRef .tc main_v31))
        (V (Proc.devRef .tc main_v6)) (V (Proc.devRef .tc main_arg4)))) (V (Proc.devRef .tc main_arg5)) := by
  simp only [piece2, ops, List.drop_succ_cons, List.drop_zero, List.take_succ_cons, List.take_zero]; after_results_simp; try simp only [ofBuf_toBuf]
  rfl

end Pieces

/-! ## At the extended reals: the log-softmax, and the whole line -/

section AtIdeal

variable (V : Valuation τ sig (Elt Ideal))

theorem logSoftmax4 : after (piece4 (F := Ideal)) V (Proc.devRef .tc main_v67)
    = Cert.RowLogSoftmax.rowLogSoftmax (V (Proc.devRef .tc main_v66)) := by
  simp only [piece4, ops, List.drop_succ_cons, List.drop_zero]; after_results_simp; try simp only [ofBuf_toBuf]
  rfl

/-- The whole line, from any contents: the result buffer ends at the network of the argument buffers' contents. -/
theorem result_after : after (ops (F := Ideal)) V (Proc.devRef .tc main_v67)
    = Cert.Gcn.network (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) := by
  rw [ops_pieces, after_append, after_append, after_append, logSoftmax4, logits3, product2_2, v3_2, v6_2, v31_2, arg6_2,
    product1_1, sources1, targets1, edgeNorm1, arg4_1, arg5_1, arg6_1]
  rfl

end AtIdeal

/-! ## The run -/

set_option maxHeartbeats 40000000 in
/-- Every weakly fair execution of the reference terminates, nothing faulting, with the result buffer at the network of the
    arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67)
          = Cert.Gcn.network (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v67).trans (result_after (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.Stages

end
-- ==== Proof.lean ====
/-
  A two-layer graph convolution with symmetric normalisation, self-loops and a final log-softmax, on 100000 nodes and 3200000
  weighted edges: the kernel program computes its two dense transforms x·W1 and h·W2 in row blocks (20 blocks of 5000 rows,
  10 blocks of 10000 rows) on operands rounded to bf16 on the way in, and its final log-softmax in 10 blocks of 10000 rows; the
  reference computes the same three steps by whole-array host operations; everything between — the endpoints with self-loops,
  the degrees and their inverse square roots, the gathers, the scalings, the scatter-adds, the biases, the relu — is the same
  line of host operations in both programs.

  Over the extended reals a rounding to bf16 is the identity, a block's matrix product into a zero accumulator is the plain sum
  over the contraction index, a row's maximum and a row's sum do not depend on the block the row sits in, and the blocks tile
  their arrays; so each region leaves exactly what the corresponding host operation leaves (MatmulRegions.lean,
  SoftmaxRegion.lean), and both programs end with their result at ONE function of the seven arguments, `Cert.Gcn.network`
  (GcnNetwork.lean): the kernel by walking its buffer contents from boundary to boundary (KernelRun.lean, KernelStages.lean,
  KernelValue.lean), the reference by reading its line of operations piece by piece (RefRun.lean, RefStages.lean). No law used
  needs an entry to be finite: the precondition is never opened. The idealization rewrote no operation, so there is nothing to
  preserve; the three frames are the programs' runs with the result forgotten.
-/
import proofs.«130012_j61950608277795_1_alg».proof.Defs
import proofs.«130012_j61950608277795_1_alg».proof.Proof.Gen.Kernel
import proofs.«130012_j61950608277795_1_alg».proof.Proof.Gen.Kernel.Frame
import proofs.«130012_j61950608277795_1_alg».proof.Proof.Gen.KernelIdeal
import proofs.«130012_j61950608277795_1_alg».proof.Proof.Gen.KernelIdeal.Frame
import proofs.«130012_j61950608277795_1_alg».proof.Proof.Gen.ReferenceIdeal
import proofs.«130012_j61950608277795_1_alg».proof.Proof.Gen.Pre_finite_inputs
import proofs.«130012_j61950608277795_1_alg».proof.Proof.KernelRun
import proofs.«130012_j61950608277795_1_alg».proof.Proof.KernelValue
import proofs.«130012_j61950608277795_1_alg».proof.Proof.MatmulRegions
import proofs.«130012_j61950608277795_1_alg».proof.Proof.SoftmaxRegion
import proofs.«130012_j61950608277795_1_alg».proof.Proof.RefStages
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- The reference's frame is its run with the result forgotten. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Stages.run m ρ)

/-- Both idealized programs, from memories agreeing on the arguments, end with their result at the network of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.ResultValue.result_eq m ρ c
          (fun V c => Cert.KernelIdeal.MatmulRegions.layer1_product V c)
          (fun V c => Cert.KernelIdeal.MatmulRegions.layer2_product V c)
          (fun V c => Cert.KernelIdeal.SoftmaxRegion.rows_logSoftmax V c)), (h c).2⟩)
      (Cert.KernelIdeal.RunResult.run_result (F := Ideal) m ρ)
  · refine (θ_run Cert.ReferenceIdeal.defs _ _).mono (fun r h c => ⟨(h c).1.trans ?_, (h c).2⟩) (Cert.ReferenceIdeal.Stages.run m' ρ')
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
